-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x384 : Shape := ⟨3, ![64, 512, 384]⟩
abbrev S384x64 : Shape := ⟨2, ![384, 64]⟩
abbrev S_ : Shape := ⟨0, ![]⟩

class Facts : Prop where
  bcast_S_S64x512x384 : S_.BroadcastsInDim S64x512x384 (![] : Fin 0 → Fin S64x512x384.rank)
  reducesTo_S64x512x384_S_d0_1_2 : S64x512x384.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_

variable [Facts]

def fn_part1 {F : FTy → Type} [FloatOps F] (main_v13 : IVec S_ 1) (main_v16 : IVec S384x64 1) : IVec S_ 1 :=
  let main_c_5 : IVec S_ 1 := constantI S_ 1 1#1
  let main_v17 : IVec S_ 1 := (fun x v => Host.reduce IntOp.andi x v reducesTo_S384x64_S_d0_1 h_S_) main_v16 main_c_5
  let main_v18 : IVec S_ 1 := andi main_v13 main_v17
  main_v18

def fn {F : FTy → Type} [FloatOps F] (main_arg0 : FVec F S64x512x384 .f32) (main_arg1 : FVec F S384x64 .f32) (main_arg2 : FVec F S384x64 .f32) (main_arg3 : FVec F S384x64 .f32) : IVec S_ 1 :=
  let main_v0 : FVec F S64x512x384 .f32 := Host.absf main_arg0
  let main_cst : FVec F S_ .f32 := constant S_ .f32 0x7F800000#32
  let main_v1 : FVec F S64x512x384 .f32 := broadcastInDim S64x512x384 ![] bcast_S_S64x512x384 main_cst
  let main_v2 : IVec S64x512x384 1 := cmpf .olt main_v0 main_v1
  let main_c : IVec S_ 1 := constantI S_ 1 1#1
  let main_v3 : IVec S_ 1 := (fun x v => Host.reduce IntOp.andi x v reducesTo_S64x512x384_S_d0_1_2 h_S_) main_v2 main_c
  let main_v4 : FVec F S384x64 .f32 := Host.absf main_arg1
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S384x64 .f32 := Host.absf main_arg3
  let main_cst_4 : FVec F S_ .f32 := constant S_ .f32 0x7F800000#32
  let main_v15 : FVec F S384x64 .f32 := broadcastInDim S384x64 ![] bcast_S_S384x64 main_cst_4
  let main_v16 : IVec S384x64 1 := cmpf .olt main_v14 main_v15
  fn_part1 (F := F) main_v13 main_v16
-- ==== Kernel.lean ====
abbrev S64x512x384 : Shape := ⟨3, ![64, 512, 384]⟩
abbrev S384x64 : Shape := ⟨2, ![384, 64]⟩
abbrev S384x192 : Shape := ⟨2, ![384, 192]⟩
abbrev S64x512x64 : Shape := ⟨3, ![64, 512, 64]⟩
abbrev S2x512x384 : Shape := ⟨3, ![2, 512, 384]⟩
abbrev S2x512x64 : Shape := ⟨3, ![2, 512, 64]⟩
abbrev S1024x384 : Shape := ⟨2, ![1024, 384]⟩
abbrev S1024x192 : Shape := ⟨2, ![1024, 192]⟩
abbrev S2x512x192 : Shape := ⟨3, ![2, 512, 192]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 6
  | .vmem => 5
  | .smem => 0
  | _ => 0

abbrev bufTy : (tb : Table) → Fin (tcTables nBuf tb) → BufTy
  | .hbm, ⟨0, _⟩ => ⟨S64x512x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S384x192, .f32⟩
  | .hbm, ⟨5, _⟩ => ⟨S64x512x64, .f32⟩
  | .local _ .vmem, ⟨0, _⟩ => ⟨S2x512x384, .f32⟩
  | .local _ .vmem, ⟨1, _⟩ => ⟨S2x512x384, .f32⟩
  | .local _ .vmem, ⟨2, _⟩ => ⟨S384x192, .f32⟩
  | .local _ .vmem, ⟨3, _⟩ => ⟨S2x512x64, .f32⟩
  | .local _ .vmem, ⟨4, _⟩ => ⟨S2x512x64, .f32⟩
  | _, _ => ⟨S64x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S384x64_S384x64_S384x64_S384x192_d1 : Shape.Concatenates [S384x64, S384x64, S384x64] S384x192 1
  inb_S2x512x384_S2x512x384_0_0_0 : ∀ a, (![0, 0, 0] : Fin 3 → Nat) a + S2x512x384.size a ≤ S2x512x384.size a
  h_S2x512x384 : 0 < S2x512x384.numel
  inb_S384x192_S384x192_0_0 : ∀ a, (![0, 0] : Fin 2 → Nat) a + S384x192.size a ≤ S384x192.size a
  h_S384x192 : 0 < S384x192.numel
  shapeCasts_S384x192_S384x192 : S384x192.ShapeCasts S384x192
  bitsLt_bf16_f32 : FTy.bits .bf16 < FTy.bits .f32
  shapeCasts_S2x512x384_S1024x384 : S2x512x384.ShapeCasts S1024x384
  shapeCasts_S1024x192_S2x512x192 : S1024x192.ShapeCasts S2x512x192
  slices_S2x512x192_o0_0_0_S2x512x64 : S2x512x192.Slices ![0, 0, 0] S2x512x64
  slices_S2x512x192_o0_0_64_S2x512x64 : S2x512x192.Slices ![0, 0, 64] S2x512x64
  slices_S2x512x192_o0_0_128_S2x512x64 : S2x512x192.Slices ![0, 0, 128] S2x512x64
  iota_S2x512x512_d1_w32 : S2x512x512.Iotas .tc 32 [1]
  iota_S2x512x512_d2_w32 : S2x512x512.Iotas .tc 32 [2]
  reduces_S2x512x512_S2x512 : S2x512x512.Reduces [2] S2x512
  shapeCasts_S2x512_S2x512x1 : S2x512.ShapeCasts S2x512x1
  broadcasts_S2x512x1_S2x512x512 : S2x512x1.Broadcasts S2x512x512
  inb_S2x512x64_S2x512x64_0_0_0 : ∀ a, (![0, 0, 0] : Fin 3 → Nat) a + S2x512x64.size a ≤ S2x512x64.size a
  h_S2x512x64 : 0 < S2x512x64.numel
  dot_S1024x384_S384x192_S1024x192_1_0_0_1_n_n_wf : DotDims.WF S1024x384 S384x192 S1024x192 [1] [0] [0] [1] [] []
  dot_S2x512x64_S2x512x64_S2x512x512_2_2_1_1_0_0_wf : DotDims.WF S2x512x64 S2x512x64 S2x512x512 [2] [2] [1] [1] [0] [0]
  dot_S2x512x512_S2x512x64_S2x512x64_2_1_1_2_0_0_wf : DotDims.WF S2x512x512 S2x512x64 S2x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x384.size a ≤ S64x512x384.size a
  hwx0_0 : ∀ i : grid0.Coords, EltTy.bits .f32 = 32 ∨ (Rect.block (s := S64x512x384) S2x512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x192.size a ≤ S384x192.size a
  hwx0_1 : ∀ i : grid0.Coords, EltTy.bits .f32 = 32 ∨ (Rect.block (s := S384x192) S384x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x64.size a ≤ S64x512x64.size a
  hwx0_2 : ∀ i : grid0.Coords, EltTy.bits .f32 = 32 ∨ (Rect.block (s := S64x512x64) S2x512x64.size (cc0_transform_2 i) (hinb0_2 i)).WholeWords (EltTy.packing .f32)

variable [Facts₀]

def dot_S1024x384_S384x192_S1024x192_1_0_0_1_n_n : DotDims S1024x384 S384x192 S1024x192 where
  lhsContracting := [1]
  rhsContracting := [0]
  lhsNonContracting := [0]
  rhsNonContracting := [1]
  lhsBatch := []
  rhsBatch := []
  wf := dot_S1024x384_S384x192_S1024x192_1_0_0_1_n_n_wf
def dot_S2x512x64_S2x512x64_S2x512x512_2_2_1_1_0_0 : DotDims S2x512x64 S2x512x64 S2x512x512 where
  lhsContracting := [2]
  rhsContracting := [2]
  lhsNonContracting := [1]
  rhsNonContracting := [1]
  lhsBatch := [0]
  rhsBatch := [0]
  wf := dot_S2x512x64_S2x512x64_S2x512x512_2_2_1_1_0_0_wf
def dot_S2x512x512_S2x512x64_S2x512x64_2_1_1_2_0_0 : DotDims S2x512x512 S2x512x64 S2x512x64 where
  lhsContracting := [2]
  rhsContracting := [1]
  lhsNonContracting := [1]
  rhsNonContracting := [2]
  lhsBatch := [0]
  rhsBatch := [0]
  wf := dot_S2x512x512_S2x512x64_S2x512x64_2_1_1_2_0_0_wf

abbrev win0_0 : Pipeline.Window sig grid0 :=
  Pipeline.Window.ofSpec (Memref.whole main_arg0) S2x512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x384 : Shape := ⟨3, ![64, 512, 384]⟩
abbrev S384x64 : Shape := ⟨2, ![384, 64]⟩
abbrev S64x512x64 : Shape := ⟨3, ![64, 512, 64]⟩
abbrev S_ : Shape := ⟨0, ![]⟩
abbrev S64x512x512 : Shape := ⟨3, ![64, 512, 512]⟩
abbrev S512x512 : Shape := ⟨2, ![512, 512]⟩
abbrev S64x512 : Shape := ⟨2, ![64, 512]⟩
abbrev S64x512x1 : Shape := ⟨3, ![64, 512, 1]⟩

abbrev nBuf : Space → Nat
  | .hbm => 45
  | .vmem => 0
  | .smem => 0
  | _ => 0

abbrev bufTy : (tb : Table) → Fin (tcTables nBuf tb) → BufTy
  | .hbm, ⟨0, _⟩ => ⟨S64x512x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S64x512x64, .f32⟩
  | .hbm, ⟨5, _⟩ => ⟨S64x512x64, .f32⟩
  | .hbm, ⟨6, _⟩ => ⟨S64x512x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S_, .i1⟩
  | .hbm, ⟨15, _⟩ => ⟨S512x512, .i1⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S_, .i1⟩
  | .hbm, ⟨23, _⟩ => ⟨S512x512, .i1⟩
  | .hbm, ⟨24, _⟩ => ⟨S512x512, .i1⟩
  | .hbm, ⟨25, _⟩ => ⟨S_, .f32⟩
  | .hbm, ⟨26, _⟩ => ⟨S_, .f32⟩
  | .hbm, ⟨27, _⟩ => ⟨S64x512x512, .i1⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S64x512x1, .f32⟩
  | .hbm, ⟨36, _⟩ => ⟨S64x512x512, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S64x512, .f32⟩
  | .hbm, ⟨41, _⟩ => ⟨S64x512x1, .f32⟩
  | .hbm, ⟨42, _⟩ => ⟨S64x512x512, .f32⟩
  | .hbm, ⟨43, _⟩ => ⟨S64x512x512, .f32⟩
  | .hbm, ⟨44, _⟩ => ⟨S64x512x64, .f32⟩
  | _, _ => ⟨S64x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v9 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  bcast_S_S512x512 : S_.BroadcastsInDim S512x512 (![] : Fin 0 → Fin S512x512.rank)
  bcast_S512x512_S64x512x512_1_2 : S512x512.BroadcastsInDim S64x512x512 (![1, 2] : Fin 2 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  dot_S64x512x384_S384x64_S64x512x64_2_0_01_1_n_n_wf : DotDims.WF S64x512x384 S384x64 S64x512x64 [2] [0] [0, 1] [1] [] []
  dot_S64x512x64_S64x512x64_S64x512x512_2_2_1_1_0_0_wf : DotDims.WF S64x512x64 S64x512x64 S64x512x512 [2] [2] [1] [1] [0] [0]
  dot_S64x512x512_S64x512x64_S64x512x64_2_1_1_2_0_0_wf : DotDims.WF S64x512x512 S64x512x64 S64x512x64 [2] [1] [1] [2] [0] [0]

variable [Facts₀]

def dot_S64x512x384_S384x64_S64x512x64_2_0_01_1_n_n : DotDims S64x512x384 S384x64 S64x512x64 where
  lhsContracting := [2]
  rhsContracting := [0]
  lhsNonContracting := [0, 1]
  rhsNonContracting := [1]
  lhsBatch := []
  rhsBatch := []
  wf := dot_S64x512x384_S384x64_S64x512x64_2_0_01_1_n_n_wf
def dot_S64x512x64_S64x512x64_S64x512x512_2_2_1_1_0_0 : DotDims S64x512x64 S64x512x64 S64x512x512 where
  lhsContracting := [2]
  rhsContracting := [2]
  lhsNonContracting := [1]
  rhsNonContracting := [1]
  lhsBatch := [0]
  rhsBatch := [0]
  wf := dot_S64x512x64_S64x512x64_S64x512x512_2_2_1_1_0_0_wf
def dot_S64x512x512_S64x512x64_S64x512x64_2_1_1_2_0_0 : DotDims S64x512x512 S64x512x64 S64x512x64 where
  lhsContracting := [2]
  rhsContracting := [1]
  lhsNonContracting := [1]
  rhsNonContracting := [2]
  lhsBatch := [0]
  rhsBatch := [0]
  wf := dot_S64x512x512_S64x512x64_S64x512x64_2_1_1_2_0_0_wf

class Facts : Prop extends Facts₀ where

variable [Facts]
-- ==== Proof.FrameKernel.lean ====
/-
  The frame of `Kernel` — the kernel as printed, read at the machine's words: every weakly fair execution of @main ends, nothing faults, and the four argument
  arrays end as they began.

  @main is one host stage and one region. The stage writes the fused weight matrix W = [Wq | Wk | Wv] (the three
  384 × 64 matrices side by side, 384 × 192) into a buffer of its own and touches no argument. The region walks 32 grid
  points; at point t it is handed the block of x holding batch rows 2t and 2t + 1 (2 × 512 × 384), the whole of W, and a
  2 × 512 × 64 output block. The body reads both input blocks whole, reads the output block, and overwrites the output
  block whole with one value computed from the two input blocks. So after the body each input buffer still holds its
  block, and the output buffer holds that value: the one store covers the buffer.

  From this the pipeline library gives the run: every array a window stages ends at what the library computes from
  these per-point contents, every other unscoped buffer ends as the region found it. The arguments are read back from
  that: x is an input window's array (never written back), Wq, Wk, Wv are staged by no window, and the host stage
  wrote none of the four.
-/
import proofs.«173067_j893353198161_2_alg».proof.Proof.Gen.Kernel.Launch
import proofs.«173067_j893353198161_2_alg».proof.Proof.Gen.Kernel.Skeleton
import proofs.«173067_j893353198161_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host stage (the fused weights). -/
abbrev V (c : Dev nD) (b : Ref sig .tc) : Buf (Elt F) ((c : Thread nD τ).loc b) :=
  StableHlo.after hostOps0 (fun b => m (c, b)) b

/-- The host stage allocates nothing. -/
theorem hostOps0_fresh : (hostOps0 : List (HloOp τ sig (Elt F))).Forall fun op => op.fresh = ∅ := by
  simp only [List.Forall]; repeat' constructor

/-- @main is the host stage, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host stage writes only the fused-weights buffer: the region finds x as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- … and Wq as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- … and Wk, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- … and Wv. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's current buffer holds its block at every point, for any proof data over these arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights window's buffer holds W at every point: fetched at the first point only, its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run to the library's post, for any proof data over these arrays: the four arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

abbrev rX : Rect S2x512x384 := Rect.unit (s := S2x512x384) ![0, 0, 0] S2x512x384.size inb_S2x512x384_S2x512x384_0_0_0
abbrev rW : Rect S384x192 := Rect.unit (s := S384x192) ![0, 0] S384x192.size inb_S384x192_S384x192_0_0
abbrev rO : Rect S2x512x64 := Rect.unit (s := S2x512x64) ![0, 0, 0] S2x512x64.size inb_S2x512x64_S2x512x64_0_0_0

/-! ## What the body leaves in the output buffer -/

/-- The output buffer after the body: its one store, of the value computed from the two input blocks read whole. -/
def out0_2 (x0 : Vec F S2x512x384 .f32) (x1 : Vec F S384x192 .f32) : Vec F S2x512x64 .f32 :=
  View.canon [⟨rO, k0_pay1 (View.ld x0 rX) (View.ld x1 rW)⟩]

/-- The one store is of the whole buffer, so it covers it. -/
theorem cover0_2 (p0 : Vec F S2x512x64 .f32) (y : S2x512x64.Idx) :
    ∃ pc ∈ ([⟨rO, p0⟩] : List (View.Piece (Elt F) S2x512x64 .f32)), y ∈ pc.1.set :=
  View.cover_of_tiled [⟨rO, p0⟩] S2x512x64.size (by rfl) y

/-! ## The body's triple -/

set_option maxHeartbeats 1000000 in
/-- The body on whole buffers — the inputs' at contents `x0`, `x1`, the output's at anything — runs to the continuation
    holding the inputs' as they were and the output's at `out0_2 x0 x1`. -/
theorem sound_kernel (c : Dev nD) (E : Set ℕ) (i : grid0.Coords) (arg1 : Memref sig .tc .vmem S2x512x384 .f32) (harg1 : arg1.IsWhole) (arg2 : Memref sig .tc .vmem S384x192 .f32) (harg2 : arg2.IsWhole) (arg3 : Memref sig .tc .vmem S2x512x64 .f32) (harg3 : arg3.IsWhole)
    (x0 : Vec F S2x512x384 .f32) (x1 : Vec F S384x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each input buffer at its block and the
    output buffer at `out0_2` of the two blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array a window stages is at what the
    library computes from the proof data and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.FrameKernelIdeal.lean ====
/-
  The frame of `KernelIdeal` — the kernel read at the ideal values: every weakly fair execution of @main ends, nothing faults, and the four argument
  arrays end as they began.

  @main is one host stage and one region. The stage writes the fused weight matrix W = [Wq | Wk | Wv] (the three
  384 × 64 matrices side by side, 384 × 192) into a buffer of its own and touches no argument. The region walks 32 grid
  points; at point t it is handed the block of x holding batch rows 2t and 2t + 1 (2 × 512 × 384), the whole of W, and a
  2 × 512 × 64 output block. The body reads both input blocks whole, reads the output block, and overwrites the output
  block whole with one value computed from the two input blocks. So after the body each input buffer still holds its
  block, and the output buffer holds that value: the one store covers the buffer.

  From this the pipeline library gives the run: every array a window stages ends at what the library computes from
  these per-point contents, every other unscoped buffer ends as the region found it. The arguments are read back from
  that: x is an input window's array (never written back), Wq, Wk, Wv are staged by no window, and the host stage
  wrote none of the four.
-/
import proofs.«173067_j893353198161_2_alg».proof.Proof.Gen.KernelIdeal.Launch
import proofs.«173067_j893353198161_2_alg».proof.Proof.Gen.KernelIdeal.Skeleton
import proofs.«173067_j893353198161_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host stage (the fused weights). -/
abbrev V (c : Dev nD) (b : Ref sig .tc) : Buf (Elt F) ((c : Thread nD τ).loc b) :=
  StableHlo.after hostOps0 (fun b => m (c, b)) b

/-- The host stage allocates nothing. -/
theorem hostOps0_fresh : (hostOps0 : List (HloOp τ sig (Elt F))).Forall fun op => op.fresh = ∅ := by
  simp only [List.Forall]; repeat' constructor

/-- @main is the host stage, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host stage writes only the fused-weights buffer: the region finds x as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- … and Wq as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- … and Wk, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- … and Wv. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's current buffer holds its block at every point, for any proof data over these arrays whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights window's buffer holds W at every point: fetched at the first point only, its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run to the library's post, for any proof data over these arrays: the four arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

abbrev rX : Rect S2x512x384 := Rect.unit (s := S2x512x384) ![0, 0, 0] S2x512x384.size inb_S2x512x384_S2x512x384_0_0_0
abbrev rW : Rect S384x192 := Rect.unit (s := S384x192) ![0, 0] S384x192.size inb_S384x192_S384x192_0_0
abbrev rO : Rect S2x512x64 := Rect.unit (s := S2x512x64) ![0, 0, 0] S2x512x64.size inb_S2x512x64_S2x512x64_0_0_0

/-! ## What the body leaves in the output buffer -/

/-- The output buffer after the body: its one store, of the value computed from the two input blocks read whole. -/
def out0_2 (x0 : Vec F S2x512x384 .f32) (x1 : Vec F S384x192 .f32) : Vec F S2x512x64 .f32 :=
  View.canon [⟨rO, k0_pay1 (View.ld x0 rX) (View.ld x1 rW)⟩]

/-- The one store is of the whole buffer, so it covers it. -/
theorem cover0_2 (p0 : Vec F S2x512x64 .f32) (y : S2x512x64.Idx) :
    ∃ pc ∈ ([⟨rO, p0⟩] : List (View.Piece (Elt F) S2x512x64 .f32)), y ∈ pc.1.set :=
  View.cover_of_tiled [⟨rO, p0⟩] S2x512x64.size (by rfl) y

/-! ## The body's triple -/

set_option maxHeartbeats 1000000 in
/-- The body on whole buffers — the inputs' at contents `x0`, `x1`, the output's at anything — runs to the continuation
    holding the inputs' as they were and the output's at `out0_2 x0 x1`. -/
theorem sound_kernel (c : Dev nD) (E : Set ℕ) (i : grid0.Coords) (arg1 : Memref sig .tc .vmem S2x512x384 .f32) (harg1 : arg1.IsWhole) (arg2 : Memref sig .tc .vmem S384x192 .f32) (harg2 : arg2.IsWhole) (arg3 : Memref sig .tc .vmem S2x512x64 .f32) (harg3 : arg3.IsWhole)
    (x0 : Vec F S2x512x384 .f32) (x1 : Vec F S384x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__attn_kernel i arg1 harg1 arg2 harg2 arg3 harg3) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each input buffer at its block and the
    output buffer at `out0_2` of the two blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array a window stages is at what the
    library computes from the proof data and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«173067_j893353198161_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibSoftmaxLanes.lean ====
/-
  A softmax along the LANES (the last axis) of a rank-3 vector, read AT AN INDEX at the ideal values, for a kernel that
  spells it the numerically careful way with both reductions kept (`keepdims`) and broadcast back along the lanes:

  * `laneMax3_apply`: a `multi_reduction <maximumf>` over the last axis of a rank-3 vector, at (a, b), is the fold of
    `max` from the accumulator's value over the lane coordinate;
  * `softmaxLanes3_apply`: the whole chain (maximum, cast [a, b] → [a, b, 1], broadcast to [a, b, c], subtract,
    exponentiate, sum, cast, broadcast, divide) at (a, b, j) is `SoftmaxRows.softmaxAt` of the lane row at (a, b).

  Nothing here needs the entries to be finite.
-/
import Idealize.ShloMosaic.PureOps.Ideal.Laws
import Idealize.ShloMosaic.Lib.Pipeline.Value
import Idealize.ShloMosaic.Lib.ValueIdx
import proofs.«173067_j893353198161_2_alg».proof.Proof.LibKeepdims
import proofs.«173067_j893353198161_2_alg».proof.Proof.LibSoftmaxRows

noncomputable section

open scoped BigOperators

namespace Idealize.ShloMosaic.SoftmaxLanes

open Idealize.ShloMosaic Idealize.ShloMosaic.ValueIdx Idealize.ShloMosaic.SoftmaxRows

/-- A maximum over the last axis of a rank-3 vector, at (a, b): the fold of `max` over the lane coordinate. -/
theorem laneMax3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (a : Fin n0) (b : Fin n1) :
    multiReduction .maximumf [2] ⟨2, ![n0, n1]⟩ v acc h hφ hacc (ix2 a b)
      = (Finset.univ : Finset (Fin n2)).fold max (Ideal.ofBits φ acc) (fun c => v (ix3 a b c)) :=
  (Ideal.multiReduction_maximumf_single v acc h hφ hacc (ix2 a b)).trans
    (Finset.fold_congr fun c _ => congrArg v (funext fun d => Fin.ext (by
      match d with | ⟨0, _⟩ => rfl | ⟨1, _⟩ => rfl | ⟨2, _⟩ => rfl)))

/-- The keepdims softmax chain of a kernel over the lanes of `s`, at (a, b, j). -/
theorem softmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩ (multiReduction .maximumf [2] ⟨2, ![n0, n1]⟩ s accM hr hφ hM) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans (laneMax3_apply s accM hr hφ hM a b))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

end Idealize.ShloMosaic.SoftmaxLanes

end
-- ==== Proof.LibCausalMask.lean ====
/-
  The causal mask both a kernel and a jnp reference build from two `iota`s: position words compared signed, `row ≥ col`,
  and a `select` on the result. For positions below 2³¹ the 32-bit words are the positions themselves, read signed or
  not, so the select is an `if col ≤ row`.

  * `toInt_ofNat32`: the signed reading of the word of a number below 2³¹ is the number;
  * `select_sge_ofNat`: `select (cmpi sge (word q) (word k)) a b = if k ≤ q then a else b`;
  * `addi_zero32`: adding the zero word (a `tril` with offset 0) changes nothing.
-/
import Idealize.ShloMosaic.PureOps
import Idealize.ShloMosaic.Lib.Affine

namespace Idealize.ShloMosaic.CausalMask

open Idealize.ShloMosaic

/-- The signed reading of the 32-bit word of a number below 2³¹ is the number. -/
theorem toInt_ofNat32 (k : Nat) (hk : k < 2147483648) : (BitVec.ofNat 32 k).toInt = (k : Int) := by
  rw [BitVec.toInt_eq_toNat_cond, BitVec.toNat_ofNat]
  have h : k % 2 ^ 32 = k := Nat.mod_eq_of_lt (by omega)
  rw [h]
  split
  · rfl
  · omega

/-- A select on `row ≥ col` over position words is an `if col ≤ row`. -/
theorem select_sge_ofNat {α : Type} (q k : Nat) (hq : q < 2147483648) (hk : k < 2147483648) (a b : α) :
    Scalar.select (IntOp.cmpi .sge (BitVec.ofNat 32 q) (BitVec.ofNat 32 k)) a b = if k ≤ q then a else b := by
  unfold Scalar.select
  have key : IntOp.cmpi .sge (BitVec.ofNat 32 q) (BitVec.ofNat 32 k) = 1#1 ↔ k ≤ q := by
    rw [IntOp.cmpi_sge, toInt_ofNat32 q hq, toInt_ofNat32 k hk]
    exact Int.ofNat_le
  by_cases h : k ≤ q
  · rw [if_pos h]; exact if_pos (key.mpr h)
  · rw [if_neg h]; exact if_neg (fun h1 => h (key.mp h1))

/-- Adding the zero word changes nothing. -/
theorem addi_zero32 (x : BitVec 32) : IntOp.addi x 0#32 = x := by
  unfold IntOp.addi
  exact BitVec.add_zero x

end Idealize.ShloMosaic.CausalMask
-- ==== Proof.Spec.lean ====
/-
  One causal attention head over one batch row, as a function of the three projections Q, K, V (512 positions × 64
  features each), on the extended reals:

    logit q k  = (∑ h, Q q h · K k h) · 0.125   if k ≤ q,   ⊥ (that is, -∞) otherwise
    head q h   = ∑ k, softmax_k (logit q ·) · V k h

  with the softmax spelt the careful way (subtract the row's maximum — a fold of max from -∞ —, exponentiate, divide by
  the row's sum). Both programs compute exactly this, entry by entry; neither side's arithmetic is rearranged, so no
  entry needs to be finite.
-/
import Idealize.ShloMosaic.PureOps.Ideal
import Idealize.ShloMosaic.Lib.ValueIdx
import proofs.«173067_j893353198161_2_alg».proof.Proof.LibSoftmaxRows

noncomputable section

open scoped BigOperators

namespace Cert.Attn

open Idealize.ShloMosaic Idealize.ShloMosaic.ValueIdx Idealize.ShloMosaic.SoftmaxRows

/-- The masked, scaled score of query position `q` against key position `k`. -/
def logit (Q K : Fin 512 → Fin 64 → EReal) (q k : Fin 512) : EReal :=
  if k.val ≤ q.val then (∑ h : Fin 64, Q q h * K k h) * Ideal.ofBits .f32 0x3E000000#32 else ⊥

/-- The head's output at position `q`, feature `h`. -/
def head (Q K V : Fin 512 → Fin 64 → EReal) (q : Fin 512) (h : Fin 64) : EReal :=
  ∑ k : Fin 512, softmaxAt (logit Q K q) (Ideal.ofBits .f32 0xFF800000#32) k * V k h

/-- A projection of one batch row: position `t`, feature `h` is the dot product of x's row with the weight's column. -/
def proj (x : (⟨3, ![64, 512, 384]⟩ : Shape).Idx → EReal) (w : (⟨2, ![384, 64]⟩ : Shape).Idx → EReal) (b : Fin 64)
    (t : Fin 512) (h : Fin 64) : EReal :=
  ∑ c : Fin 384, x (ix3 b t c) * w (ix2 c h)

/-- The whole result: batch row `b`, position `q`, feature `h`. -/
def attn (x : (⟨3, ![64, 512, 384]⟩ : Shape).Idx → EReal) (wq wk wv : (⟨2, ![384, 64]⟩ : Shape).Idx → EReal) :
    (⟨3, ![64, 512, 64]⟩ : Shape).Idx → EReal :=
  fun i => head (proj x wq (i 0)) (proj x wk (i 0)) (proj x wv (i 0)) (i 1) (i 2)

end Cert.Attn

end
-- ==== Proof.KernelPayload.lean ====
/-
  What the kernel body computes from its two input blocks, read entry by entry at the ideal values.

  The body is handed a block x0 of two batch rows (2 × 512 × 384) and the fused weights w (384 × 192). It flattens x0 to
  1024 × 384, multiplies by w into a zero accumulator — entry (512 b + t, j) is ∑_c x0[b, t, c] · w[c, j] —, views the
  product as 2 × 512 × 192 and cuts it into columns 0–63 (Q), 64–127 (K), 128–191 (V). Per batch row it forms the scores
  ∑_h Q[q, h] · K[k, h], scales them by the word of 0.125, keeps those with k ≤ q (two position counters compared) and
  fills the rest with the named constant that denotes ⊥, takes the softmax along k, and multiplies by V. The changes of
  float format are the identity here. So entry (b, q, h) of the result is `Attn.head` of that batch row's three
  projections.
-/
import proofs.«173067_j893353198161_2_alg».proof.KernelIdeal
import proofs.«173067_j893353198161_2_alg».proof.Proof.Gen.KernelIdeal
import proofs.«173067_j893353198161_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules
import proofs.«173067_j893353198161_2_alg».proof.Proof.LibKeepdims
import proofs.«173067_j893353198161_2_alg».proof.Proof.LibSoftmaxRows
import proofs.«173067_j893353198161_2_alg».proof.Proof.LibSoftmaxLanes
import proofs.«173067_j893353198161_2_alg».proof.Proof.LibCausalMask
import proofs.«173067_j893353198161_2_alg».proof.Proof.Spec

set_option maxRecDepth 16384

noncomputable section

open scoped BigOperators

namespace Cert.KernelIdeal.Pay

open Cert.KernelIdeal Cert.KernelIdeal.Gen Idealize.ShloMosaic Idealize.ShloMosaic.ValueIdx

/-! ## The three matrix products at an index -/

theorem l1_0 (i : S1024x192.Idx) (q : dot_S1024x384_S384x192_S1024x192_1_0_0_1_n_n.contr.Idx) :
    (dot_S1024x384_S384x192_S1024x192_1_0_0_1_n_n.lhsIdx i q 0).val = (i 0).val := by
  unfold DotDims.lhsIdx
  rw [dif_neg (show ¬(0 : Fin S1024x384.rank) ∈ dot_S1024x384_S384x192_S1024x192_1_0_0_1_n_n.lhsBatch by decide), dif_pos (show (0 : Fin S1024x384.rank) ∈ dot_S1024x384_S384x192_S1024x192_1_0_0_1_n_n.lhsNonContracting by decide)]
  rfl

theorem l1_1 (i : S1024x192.Idx) (q : dot_S1024x384_S384x192_S1024x192_1_0_0_1_n_n.contr.Idx) :
    (dot_S1024x384_S384x192_S1024x192_1_0_0_1_n_n.lhsIdx i q 1).val = (q ⟨0, by decide⟩).val :=
  dot_S1024x384_S384x192_S1024x192_1_0_0_1_n_n.lhsIdx_val_of_single rfl i q

theorem r1_0 (i : S1024x192.Idx) (q : dot_S1024x384_S384x192_S1024x192_1_0_0_1_n_n.contr.Idx) :
    (dot_S1024x384_S384x192_S1024x192_1_0_0_1_n_n.rhsIdx i q 0).val = (q ⟨0, by decide⟩).val :=
  dot_S1024x384_S384x192_S1024x192_1_0_0_1_n_n.rhsIdx_val_of_single rfl i q

theorem r1_1 (i : S1024x192.Idx) (q : dot_S1024x384_S384x192_S1024x192_1_0_0_1_n_n.contr.Idx) :
    (dot_S1024x384_S384x192_S1024x192_1_0_0_1_n_n.rhsIdx i q 1).val = (i 1).val := by
  unfold DotDims.rhsIdx
  rw [dif_neg (show ¬(1 : Fin S384x192.rank) ∈ dot_S1024x384_S384x192_S1024x192_1_0_0_1_n_n.rhsBatch by decide), dif_pos (show (1 : Fin S384x192.rank) ∈ dot_S1024x384_S384x192_S1024x192_1_0_0_1_n_n.rhsNonContracting by decide)]
  rfl

/-- The projection product: entry (r, j) is the dot product of row r with column j. -/
theorem mmProj_apply (lhs : FVec Ideal S1024x384 .bf16) (rhs : FVec Ideal S384x192 .bf16) (r : Fin 1024) (j : Fin 192) :
    matmul dot_S1024x384_S384x192_S1024x192_1_0_0_1_n_n none lhs rhs (constant (F := Ideal) S1024x192 .f32 0x00000000#32) (ix2 r j)
      = ∑ c : Fin 384, lhs (ix2 r c) * rhs (ix2 c j) := by
  simp only [matmul]
  rw [Ideal.matmul_constant_zero_apply, ← Equiv.sum_comp (ValueIdx.contrEquiv1 dot_S1024x384_S384x192_S1024x192_1_0_0_1_n_n 384 rfl rfl).symm]
  refine Finset.sum_congr rfl fun k _ => ?_
  have hk := ValueIdx.contrEquiv1_symm_val dot_S1024x384_S384x192_S1024x192_1_0_0_1_n_n 384 rfl rfl k
  have el : dot_S1024x384_S384x192_S1024x192_1_0_0_1_n_n.lhsIdx (ix2 r j) ((ValueIdx.contrEquiv1 dot_S1024x384_S384x192_S1024x192_1_0_0_1_n_n 384 rfl rfl).symm k) = ix2 r k := funext fun a => Fin.ext (by
    match a with
    | ⟨0, _⟩ => exact l1_0 _ _
    | ⟨1, _⟩ => exact (l1_1 _ _).trans hk)
  have er : dot_S1024x384_S384x192_S1024x192_1_0_0_1_n_n.rhsIdx (ix2 r j) ((ValueIdx.contrEquiv1 dot_S1024x384_S384x192_S1024x192_1_0_0_1_n_n 384 rfl rfl).symm k) = ix2 k j := funext fun a => Fin.ext (by
    match a with
    | ⟨0, _⟩ => exact (r1_0 _ _).trans hk
    | ⟨1, _⟩ => exact r1_1 _ _)
  rw [el, er]

theorem l2_0 (i : S2x512x512.Idx) (q : dot_S2x512x64_S2x512x64_S2x512x512_2_2_1_1_0_0.contr.Idx) :
    (dot_S2x512x64_S2x512x64_S2x512x512_2_2_1_1_0_0.lhsIdx i q 0).val = (i 0).val := by
  unfold DotDims.lhsIdx
  rw [dif_pos (show (0 : Fin S2x512x64.rank) ∈ dot_S2x512x64_S2x512x64_S2x512x512_2_2_1_1_0_0.lhsBatch by decide)]
  rfl

theorem l2_1 (i : S2x512x512.Idx) (q : dot_S2x512x64_S2x512x64_S2x512x512_2_2_1_1_0_0.contr.Idx) :
    (dot_S2x512x64_S2x512x64_S2x512x512_2_2_1_1_0_0.lhsIdx i q 1).val = (i 1).val := by
  unfold DotDims.lhsIdx
  rw [dif_neg (show ¬(1 : Fin S2x512x64.rank) ∈ dot_S2x512x64_S2x512x64_S2x512x512_2_2_1_1_0_0.lhsBatch by decide), dif_pos (show (1 : Fin S2x512x64.rank) ∈ dot_S2x512x64_S2x512x64_S2x512x512_2_2_1_1_0_0.lhsNonContracting by decide)]
  rfl

theorem l2_2 (i : S2x512x512.Idx) (q : dot_S2x512x64_S2x512x64_S2x512x512_2_2_1_1_0_0.contr.Idx) :
    (dot_S2x512x64_S2x512x64_S2x512x512_2_2_1_1_0_0.lhsIdx i q 2).val = (q ⟨0, by decide⟩).val :=
  dot_S2x512x64_S2x512x64_S2x512x512_2_2_1_1_0_0.lhsIdx_val_of_single rfl i q

theorem r2_0 (i : S2x512x512.Idx) (q : dot_S2x512x64_S2x512x64_S2x512x512_2_2_1_1_0_0.contr.Idx) :
    (dot_S2x512x64_S2x512x64_S2x512x512_2_2_1_1_0_0.rhsIdx i q 0).val = (i 0).val := by
  unfold DotDims.rhsIdx
  rw [dif_pos (show (0 : Fin S2x512x64.rank) ∈ dot_S2x512x64_S2x512x64_S2x512x512_2_2_1_1_0_0.rhsBatch by decide)]
  rfl

theorem r2_1 (i : S2x512x512.Idx) (q : dot_S2x512x64_S2x512x64_S2x512x512_2_2_1_1_0_0.contr.Idx) :
    (dot_S2x512x64_S2x512x64_S2x512x512_2_2_1_1_0_0.rhsIdx i q 1).val = (i 2).val := by
  unfold DotDims.rhsIdx
  rw [dif_neg (show ¬(1 : Fin S2x512x64.rank) ∈ dot_S2x512x64_S2x512x64_S2x512x512_2_2_1_1_0_0.rhsBatch by decide), dif_pos (show (1 : Fin S2x512x64.rank) ∈ dot_S2x512x64_S2x512x64_S2x512x512_2_2_1_1_0_0.rhsNonContracting by decide)]
  rfl

theorem r2_2 (i : S2x512x512.Idx) (q : dot_S2x512x64_S2x512x64_S2x512x512_2_2_1_1_0_0.contr.Idx) :
    (dot_S2x512x64_S2x512x64_S2x512x512_2_2_1_1_0_0.rhsIdx i q 2).val = (q ⟨0, by decide⟩).val :=
  dot_S2x512x64_S2x512x64_S2x512x512_2_2_1_1_0_0.rhsIdx_val_of_single rfl i q

/-- The score product, per batch row: entry (b, q, k) is the dot product of Q's row q with K's row k. -/
theorem mmScore_apply (lhs rhs : FVec Ideal S2x512x64 .bf16) (b : Fin 2) (q k : Fin 512) :
    matmul dot_S2x512x64_S2x512x64_S2x512x512_2_2_1_1_0_0 none lhs rhs (constant (F := Ideal) S2x512x512 .f32 0x00000000#32) (ix3 b q k)
      = ∑ h : Fin 64, lhs (ix3 b q h) * rhs (ix3 b k h) := by
  simp only [matmul]
  rw [Ideal.matmul_constant_zero_apply, ← Equiv.sum_comp (ValueIdx.contrEquiv1 dot_S2x512x64_S2x512x64_S2x512x512_2_2_1_1_0_0 64 rfl rfl).symm]
  refine Finset.sum_congr rfl fun h _ => ?_
  have hk := ValueIdx.contrEquiv1_symm_val dot_S2x512x64_S2x512x64_S2x512x512_2_2_1_1_0_0 64 rfl rfl h
  have el : dot_S2x512x64_S2x512x64_S2x512x512_2_2_1_1_0_0.lhsIdx (ix3 b q k) ((ValueIdx.contrEquiv1 dot_S2x512x64_S2x512x64_S2x512x512_2_2_1_1_0_0 64 rfl rfl).symm h) = ix3 b q h := funext fun a => Fin.ext (by
    match a with
    | ⟨0, _⟩ => exact l2_0 _ _
    | ⟨1, _⟩ => exact l2_1 _ _
    | ⟨2, _⟩ => exact (l2_2 _ _).trans hk)
  have er : dot_S2x512x64_S2x512x64_S2x512x512_2_2_1_1_0_0.rhsIdx (ix3 b q k) ((ValueIdx.contrEquiv1 dot_S2x512x64_S2x512x64_S2x512x512_2_2_1_1_0_0 64 rfl rfl).symm h) = ix3 b k h := funext fun a => Fin.ext (by
    match a with
    | ⟨0, _⟩ => exact r2_0 _ _
    | ⟨1, _⟩ => exact r2_1 _ _
    | ⟨2, _⟩ => exact (r2_2 _ _).trans hk)
  rw [el, er]

theorem l3_0 (i : S2x512x64.Idx) (q : dot_S2x512x512_S2x512x64_S2x512x64_2_1_1_2_0_0.contr.Idx) :
    (dot_S2x512x512_S2x512x64_S2x512x64_2_1_1_2_0_0.lhsIdx i q 0).val = (i 0).val := by
  unfold DotDims.lhsIdx
  rw [dif_pos (show (0 : Fin S2x512x512.rank) ∈ dot_S2x512x512_S2x512x64_S2x512x64_2_1_1_2_0_0.lhsBatch by decide)]
  rfl

theorem l3_1 (i : S2x512x64.Idx) (q : dot_S2x512x512_S2x512x64_S2x512x64_2_1_1_2_0_0.contr.Idx) :
    (dot_S2x512x512_S2x512x64_S2x512x64_2_1_1_2_0_0.lhsIdx i q 1).val = (i 1).val := by
  unfold DotDims.lhsIdx
  rw [dif_neg (show ¬(1 : Fin S2x512x512.rank) ∈ dot_S2x512x512_S2x512x64_S2x512x64_2_1_1_2_0_0.lhsBatch by decide), dif_pos (show (1 : Fin S2x512x512.rank) ∈ dot_S2x512x512_S2x512x64_S2x512x64_2_1_1_2_0_0.lhsNonContracting by decide)]
  rfl

theorem l3_2 (i : S2x512x64.Idx) (q : dot_S2x512x512_S2x512x64_S2x512x64_2_1_1_2_0_0.contr.Idx) :
    (dot_S2x512x512_S2x512x64_S2x512x64_2_1_1_2_0_0.lhsIdx i q 2).val = (q ⟨0, by decide⟩).val :=
  dot_S2x512x512_S2x512x64_S2x512x64_2_1_1_2_0_0.lhsIdx_val_of_single rfl i q

theorem r3_0 (i : S2x512x64.Idx) (q : dot_S2x512x512_S2x512x64_S2x512x64_2_1_1_2_0_0.contr.Idx) :
    (dot_S2x512x512_S2x512x64_S2x512x64_2_1_1_2_0_0.rhsIdx i q 0).val = (i 0).val := by
  unfold DotDims.rhsIdx
  rw [dif_pos (show (0 : Fin S2x512x64.rank) ∈ dot_S2x512x512_S2x512x64_S2x512x64_2_1_1_2_0_0.rhsBatch by decide)]
  rfl

theorem r3_1 (i : S2x512x64.Idx) (q : dot_S2x512x512_S2x512x64_S2x512x64_2_1_1_2_0_0.contr.Idx) :
    (dot_S2x512x512_S2x512x64_S2x512x64_2_1_1_2_0_0.rhsIdx i q 1).val = (q ⟨0, by decide⟩).val :=
  dot_S2x512x512_S2x512x64_S2x512x64_2_1_1_2_0_0.rhsIdx_val_of_single rfl i q

theorem r3_2 (i : S2x512x64.Idx) (q : dot_S2x512x512_S2x512x64_S2x512x64_2_1_1_2_0_0.contr.Idx) :
    (dot_S2x512x512_S2x512x64_S2x512x64_2_1_1_2_0_0.rhsIdx i q 2).val = (i 2).val := by
  unfold DotDims.rhsIdx
  rw [dif_neg (show ¬(2 : Fin S2x512x64.rank) ∈ dot_S2x512x512_S2x512x64_S2x512x64_2_1_1_2_0_0.rhsBatch by decide), dif_pos (show (2 : Fin S2x512x64.rank) ∈ dot_S2x512x512_S2x512x64_S2x512x64_2_1_1_2_0_0.rhsNonContracting by decide)]
  rfl

/-- The output product, per batch row: entry (b, q, h) is the weights' row q against V's column h. -/
theorem mmOut_apply (lhs : FVec Ideal S2x512x512 .bf16) (rhs : FVec Ideal S2x512x64 .bf16) (b : Fin 2) (q : Fin 512) (h : Fin 64) :
    matmul dot_S2x512x512_S2x512x64_S2x512x64_2_1_1_2_0_0 none lhs rhs (constant (F := Ideal) S2x512x64 .f32 0x00000000#32) (ix3 b q h)
      = ∑ k : Fin 512, lhs (ix3 b q k) * rhs (ix3 b k h) := by
  simp only [matmul]
  rw [Ideal.matmul_constant_zero_apply, ← Equiv.sum_comp (ValueIdx.contrEquiv1 dot_S2x512x512_S2x512x64_S2x512x64_2_1_1_2_0_0 512 rfl rfl).symm]
  refine Finset.sum_congr rfl fun k _ => ?_
  have hk := ValueIdx.contrEquiv1_symm_val dot_S2x512x512_S2x512x64_S2x512x64_2_1_1_2_0_0 512 rfl rfl k
  have el : dot_S2x512x512_S2x512x64_S2x512x64_2_1_1_2_0_0.lhsIdx (ix3 b q h) ((ValueIdx.contrEquiv1 dot_S2x512x512_S2x512x64_S2x512x64_2_1_1_2_0_0 512 rfl rfl).symm k) = ix3 b q k := funext fun a => Fin.ext (by
    match a with
    | ⟨0, _⟩ => exact l3_0 _ _
    | ⟨1, _⟩ => exact l3_1 _ _
    | ⟨2, _⟩ => exact (l3_2 _ _).trans hk)
  have er : dot_S2x512x512_S2x512x64_S2x512x64_2_1_1_2_0_0.rhsIdx (ix3 b q h) ((ValueIdx.contrEquiv1 dot_S2x512x512_S2x512x64_S2x512x64_2_1_1_2_0_0 512 rfl rfl).symm k) = ix3 b k h := funext fun a => Fin.ext (by
    match a with
    | ⟨0, _⟩ => exact r3_0 _ _
    | ⟨1, _⟩ => exact (r3_1 _ _).trans hk
    | ⟨2, _⟩ => exact r3_2 _ _)
  rw [el, er]

/-! ## The fused projection -/

/-- Both blocks projected at once: x0 flattened, times w, viewed per batch row. -/
def qkv (x0 : Vec Ideal S2x512x384 .f32) (w : Vec Ideal S384x192 .f32) : FVec Ideal S2x512x192 .f32 :=
  shapeCast S2x512x192 (matmul dot_S1024x384_S384x192_S1024x192_1_0_0_1_n_n none
    (shapeCast S1024x384 (truncf .bf16 x0 bitsLt_bf16_f32) shapeCasts_S2x512x384_S1024x384)
    (truncf .bf16 (shapeCast S384x192 w shapeCasts_S384x192_S384x192) bitsLt_bf16_f32)
    (constant S1024x192 .f32 0x00000000#32)) shapeCasts_S1024x192_S2x512x192

/-- Row 512 b + t of the flattened block. -/
abbrev flatRow (b : Fin 2) (t : Fin 512) : Fin 1024 := ⟨b.val * 512 + t.val, by have := b.isLt; have := t.isLt; omega⟩

/-- Entry (b, t, j) of the fused projection: x0's row (b, t) against w's column j. -/
theorem qkv_apply (x0 : Vec Ideal S2x512x384 .f32) (w : Vec Ideal S384x192 .f32) (b : Fin 2) (t : Fin 512) (j : Fin 192) :
    qkv x0 w (ix3 b t j) = ∑ c : Fin 384, x0 (ix3 b t c) * w (ix2 c j) := by
  unfold qkv
  rw [shapeCast_apply _ shapeCasts_S1024x192_S2x512x192 (ix3 b t j) (ix2 (flatRow b t) j) (by
    rw [Shape.rowMajor_val_two, Shape.rowMajor_val_three]
    show (b.val * 512 + t.val) * 192 + j.val = (b.val * 512 + t.val) * 192 + j.val
    rfl)]
  rw [mmProj_apply]
  refine Finset.sum_congr rfl fun c _ => ?_
  refine congrArg₂ (· * ·) ?_ ?_
  · refine (shapeCast_apply _ shapeCasts_S2x512x384_S1024x384 (ix2 (flatRow b t) c) (ix3 b t c) ?_).trans rfl
    rw [Shape.rowMajor_val_two, Shape.rowMajor_val_three]
    show (b.val * 512 + t.val) * 384 + c.val = (b.val * 512 + t.val) * 384 + c.val
    rfl
  · show shapeCast S384x192 w shapeCasts_S384x192_S384x192 (ix2 c j) = w (ix2 c j)
    rw [shapeCast_self]

/-- Column `off + h` of the 192. -/
abbrev col (off : Nat) (hoff : off + 64 ≤ 192) (h : Fin 64) : Fin 192 := ⟨off + h.val, by have := h.isLt; omega⟩

/-- A 64-column slice of the fused projection, at (b, t, h): x0's row (b, t) against w's column off + h. -/
theorem slice_apply (x0 : Vec Ideal S2x512x384 .f32) (w : Vec Ideal S384x192 .f32) (off : Nat) (hoff : off + 64 ≤ 192)
    (hs : S2x512x192.Slices ![0, 0, off] S2x512x64) (b : Fin 2) (t : Fin 512) (h : Fin 64) :
    extractStridedSlice S2x512x64 ![0, 0, off] (qkv x0 w) hs (ix3 b t h) = ∑ c : Fin 384, x0 (ix3 b t c) * w (ix2 c (col off hoff h)) := by
  rw [extractStridedSlice_apply _ (qkv x0 w) hs (ix3 b t h) (ix3 b t (col off hoff h)) (fun a => by
    match a with
    | ⟨0, _⟩ => exact (Nat.zero_add _).symm
    | ⟨1, _⟩ => exact (Nat.zero_add _).symm
    | ⟨2, _⟩ => rfl)]
  exact qkv_apply x0 w b t (col off hoff h)

/-- The three projections of batch row `b` of the block. -/
def Qb (x0 : Vec Ideal S2x512x384 .f32) (w : Vec Ideal S384x192 .f32) (b : Fin 2) (t : Fin 512) (h : Fin 64) : EReal :=
  ∑ c : Fin 384, x0 (ix3 b t c) * w (ix2 c (col 0 (by decide) h))
def Kb (x0 : Vec Ideal S2x512x384 .f32) (w : Vec Ideal S384x192 .f32) (b : Fin 2) (t : Fin 512) (h : Fin 64) : EReal :=
  ∑ c : Fin 384, x0 (ix3 b t c) * w (ix2 c (col 64 (by decide) h))
def Vb (x0 : Vec Ideal S2x512x384 .f32) (w : Vec Ideal S384x192 .f32) (b : Fin 2) (t : Fin 512) (h : Fin 64) : EReal :=
  ∑ c : Fin 384, x0 (ix3 b t c) * w (ix2 c (col 128 (by decide) h))

/-! ## The masked scores -/

/-- The scores as the body forms them: scaled, kept where the key position is at most the query's, ⊥ elsewhere. -/
def scores (x0 : Vec Ideal S2x512x384 .f32) (w : Vec Ideal S384x192 .f32) : FVec Ideal S2x512x512 .f32 :=
  select (cmpi .sge (iota .tc S2x512x512 32 [1] iota_S2x512x512_d1_w32) (iota .tc S2x512x512 32 [2] iota_S2x512x512_d2_w32))
    (mulf (matmul dot_S2x512x64_S2x512x64_S2x512x512_2_2_1_1_0_0 none
        (truncf .bf16 (extractStridedSlice S2x512x64 ![0, 0, 0] (qkv x0 w) slices_S2x512x192_o0_0_0_S2x512x64) bitsLt_bf16_f32)
        (truncf .bf16 (extractStridedSlice S2x512x64 ![0, 0, 64] (qkv x0 w) slices_S2x512x192_o0_0_64_S2x512x64) bitsLt_bf16_f32)
        (constant S2x512x512 .f32 0x00000000#32))
      (broadcast S2x512x512 (Scalar.ofBits .f32 0x3E000000#32)))
    (broadcast S2x512x512 (Named.named κ "neg_big" 0xFF333332#32))

/-- The named fill constant denotes ⊥. -/
theorem neg_big : Named.named (F := Ideal) κ "neg_big" (φ := .f32) 0xFF333332#32 = (⊥ : EReal) :=
  IdealRules.named_const.ideal_named_scalar _ _ _ _ rfl

/-- Entry (b, q, k) of the masked scores is the spec's logit of batch row b's projections. -/
theorem scores_apply (x0 : Vec Ideal S2x512x384 .f32) (w : Vec Ideal S384x192 .f32) (b : Fin 2) (q k : Fin 512) :
    scores x0 w (ix3 b q k) = Cert.Attn.logit (Qb x0 w b) (Kb x0 w b) q k := by
  have e1 : iota .tc S2x512x512 32 [1] iota_S2x512x512_d1_w32 (ix3 b q k) = BitVec.ofNat 32 q.val :=
    iota_single_apply .tc S2x512x512 32 1 iota_S2x512x512_d1_w32 (ix3 b q k)
  have e2 : iota .tc S2x512x512 32 [2] iota_S2x512x512_d2_w32 (ix3 b q k) = BitVec.ofNat 32 k.val :=
    iota_single_apply .tc S2x512x512 32 2 iota_S2x512x512_d2_w32 (ix3 b q k)
  have e3 : matmul dot_S2x512x64_S2x512x64_S2x512x512_2_2_1_1_0_0 none
        (truncf .bf16 (extractStridedSlice S2x512x64 ![0, 0, 0] (qkv x0 w) slices_S2x512x192_o0_0_0_S2x512x64) bitsLt_bf16_f32)
        (truncf .bf16 (extractStridedSlice S2x512x64 ![0, 0, 64] (qkv x0 w) slices_S2x512x192_o0_0_64_S2x512x64) bitsLt_bf16_f32)
        (constant S2x512x512 .f32 0x00000000#32) (ix3 b q k) = ∑ h : Fin 64, Qb x0 w b q h * Kb x0 w b k h := by
    rw [mmScore_apply]
    refine Finset.sum_congr rfl fun h _ => ?_
    exact congrArg₂ (· * ·) (slice_apply x0 w 0 (by decide) slices_S2x512x192_o0_0_0_S2x512x64 b q h)
      (slice_apply x0 w 64 (by decide) slices_S2x512x192_o0_0_64_S2x512x64 b k h)
  show Scalar.select (IntOp.cmpi .sge (iota .tc S2x512x512 32 [1] iota_S2x512x512_d1_w32 (ix3 b q k))
      (iota .tc S2x512x512 32 [2] iota_S2x512x512_d2_w32 (ix3 b q k)))
    (matmul dot_S2x512x64_S2x512x64_S2x512x512_2_2_1_1_0_0 none
        (truncf .bf16 (extractStridedSlice S2x512x64 ![0, 0, 0] (qkv x0 w) slices_S2x512x192_o0_0_0_S2x512x64) bitsLt_bf16_f32)
        (truncf .bf16 (extractStridedSlice S2x512x64 ![0, 0, 64] (qkv x0 w) slices_S2x512x192_o0_0_64_S2x512x64) bitsLt_bf16_f32)
        (constant S2x512x512 .f32 0x00000000#32) (ix3 b q k) * Ideal.ofBits .f32 0x3E000000#32)
    (Named.named (F := Ideal) κ "neg_big" (φ := .f32) 0xFF333332#32) = _
  rw [e1, e2, e3, neg_big, CausalMask.select_sge_ofNat q.val k.val (by have := q.isLt; omega) (by have := k.isLt; omega)]
  rfl

/-! ## The payload -/

/-- The body's careful softmax along the key axis. -/
def soft (s : FVec Ideal S2x512x512 .f32) : FVec Ideal S2x512x512 .f32 :=
  divf (exp (subf s (broadcastTo S2x512x512 (shapeCast S2x512x1 (multiReduction .maximumf [2] S2x512 s 0xFF800000#32 reduces_S2x512x512_S2x512 (.inl rfl) rfl) shapeCasts_S2x512_S2x512x1) broadcasts_S2x512x1_S2x512x512)))
    (broadcastTo S2x512x512 (shapeCast S2x512x1 (multiReduction .add [2] S2x512
      (exp (subf s (broadcastTo S2x512x512 (shapeCast S2x512x1 (multiReduction .maximumf [2] S2x512 s 0xFF800000#32 reduces_S2x512x512_S2x512 (.inl rfl) rfl) shapeCasts_S2x512_S2x512x1) broadcasts_S2x512x1_S2x512x512)))
      0x00000000#32 reduces_S2x512x512_S2x512 (.inl rfl) rfl) shapeCasts_S2x512_S2x512x1) broadcasts_S2x512x1_S2x512x512)

/-- The body's value is the weights times V: the printed chain, regrouped under the names above. -/
theorem pay_eq (x0 : Vec Ideal S2x512x384 .f32) (w : Vec Ideal S384x192 .f32) :
    k0_pay1 (F := Ideal) x0 w = matmul dot_S2x512x512_S2x512x64_S2x512x64_2_1_1_2_0_0 none (truncf .bf16 (soft (scores x0 w)) bitsLt_bf16_f32)
      (truncf .bf16 (extractStridedSlice S2x512x64 ![0, 0, 128] (qkv x0 w) slices_S2x512x192_o0_0_128_S2x512x64) bitsLt_bf16_f32)
      (constant S2x512x64 .f32 0x00000000#32) := rfl

/-- Entry (b, q, h) of the body's value: the head of batch row b's projections. -/
theorem pay_apply (x0 : Vec Ideal S2x512x384 .f32) (w : Vec Ideal S384x192 .f32) (b : Fin 2) (q : Fin 512) (h : Fin 64) :
    k0_pay1 (F := Ideal) x0 w (ix3 b q h) = Cert.Attn.head (Qb x0 w b) (Kb x0 w b) (Vb x0 w b) q h := by
  rw [pay_eq, mmOut_apply]
  unfold Cert.Attn.head
  refine Finset.sum_congr rfl fun k _ => ?_
  refine congrArg₂ (· * ·) ?_ (slice_apply x0 w 128 (by decide) slices_S2x512x192_o0_0_128_S2x512x64 b k h)
  show soft (scores x0 w) (ix3 b q k) = _
  unfold soft
  rw [SoftmaxLanes.softmaxLanes3_apply (scores x0 w) 0xFF800000#32 0x00000000#32 reduces_S2x512x512_S2x512 shapeCasts_S2x512_S2x512x1
    broadcasts_S2x512x1_S2x512x512 (.inl rfl) rfl rfl b q k]
  exact congrArg (fun r => SoftmaxRows.softmaxAt r (Ideal.ofBits .f32 0xFF800000#32) k) (funext fun c => scores_apply x0 w b q c)

end Cert.KernelIdeal.Pay

end
-- ==== Proof.KernelValue.lean ====
/-
  What the idealized kernel leaves in its result array: `Attn.attn` of the four argument arrays.

  The region finds x as launched and the fused weights W = [Wq | Wk | Wv]: column j of W is column j of Wq for j < 64,
  column j − 64 of Wk for 64 ≤ j < 128, column j − 128 of Wv above. At grid point t the x window's block is batch rows
  2t and 2t + 1, the weights window's block is all of W, and the output window's block is batch rows 2t and 2t + 1 of the
  result. The body's value at (b, q, h) is the head of batch row b of the block, so of batch row 2t + b of x, projected by
  columns h, 64 + h, 128 + h of W, that is by Wq, Wk, Wv: point t writes back block t of `Attn.attn`. The 32 blocks are
  disjoint and cover the result (batch row r lies in block r / 2), so the array ends at `Attn.attn`.
-/
import proofs.«173067_j893353198161_2_alg».proof.Proof.FrameKernelIdeal
import proofs.«173067_j893353198161_2_alg».proof.Proof.KernelPayload
import proofs.«173067_j893353198161_2_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Val

open Cert.KernelIdeal Cert.KernelIdeal.Gen Cert.KernelIdeal.Frm Idealize.ShloMosaic Idealize.ShloMosaic.TcCoe Idealize.SL.Sem
open Idealize.ShloMosaic.Pipeline (Dat)
open Idealize.ShloMosaic.ValueIdx Idealize.ShloMosaic.StableHlo

/-! ## The fused weights -/

/-- Three 384 × 64 matrices side by side. -/
abbrev fuse (wq wk wv : S384x64.Idx → EReal) : S384x192.Idx → EReal :=
  concatenate S384x192 1 [⟨S384x64, wq⟩, ⟨S384x64, wk⟩, ⟨S384x64, wv⟩] concatenates_S384x64_S384x64_S384x64_S384x192_d1

/-- Columns 0–63 are the first matrix's. -/
theorem fuse_q (wq wk wv : S384x64.Idx → EReal) (cc : Fin 384) (h : Fin 64) :
    fuse wq wk wv (ix2 cc (Pay.col 0 (by decide) h)) = wq (ix2 cc h) :=
  concatenate_apply_piece (1 : Fin S384x192.rank) [⟨S384x64, wq⟩, ⟨S384x64, wk⟩, ⟨S384x64, wv⟩] concatenates_S384x64_S384x64_S384x64_S384x192_d1
    (ix2 cc (Pay.col 0 (by decide) h)) 0 (by show (0 : Nat) < 3; decide) S384x64 wq rfl rfl 0 rfl (ix2 cc h)
    (fun b hb => by match b with | ⟨0, _⟩ => rfl | ⟨1, _⟩ => exact absurd rfl hb) rfl

/-- Columns 64–127 are the second's. -/
theorem fuse_k (wq wk wv : S384x64.Idx → EReal) (cc : Fin 384) (h : Fin 64) :
    fuse wq wk wv (ix2 cc (Pay.col 64 (by decide) h)) = wk (ix2 cc h) :=
  concatenate_apply_piece (1 : Fin S384x192.rank) [⟨S384x64, wq⟩, ⟨S384x64, wk⟩, ⟨S384x64, wv⟩] concatenates_S384x64_S384x64_S384x64_S384x192_d1
    (ix2 cc (Pay.col 64 (by decide) h)) 1 (by show (1 : Nat) < 3; decide) S384x64 wk rfl rfl 64 rfl (ix2 cc h)
    (fun b hb => by match b with | ⟨0, _⟩ => rfl | ⟨1, _⟩ => exact absurd rfl hb) rfl

/-- Columns 128–191 are the third's. -/
theorem fuse_v (wq wk wv : S384x64.Idx → EReal) (cc : Fin 384) (h : Fin 64) :
    fuse wq wk wv (ix2 cc (Pay.col 128 (by decide) h)) = wv (ix2 cc h) :=
  concatenate_apply_piece (1 : Fin S384x192.rank) [⟨S384x64, wq⟩, ⟨S384x64, wk⟩, ⟨S384x64, wv⟩] concatenates_S384x64_S384x64_S384x64_S384x192_d1
    (ix2 cc (Pay.col 128 (by decide) h)) 2 (by show (2 : Nat) < 3; decide) S384x64 wv rfl rfl 128 rfl (ix2 cc h)
    (fun b hb => by match b with | ⟨0, _⟩ => rfl | ⟨1, _⟩ => exact absurd rfl hb) rfl

/-! ## One block's value, over plain variables -/

/-- If `x0` is batch rows 2T and 2T + 1 of `X` and `w` is the fused weights, the body's value at an index of the block is
    `Attn.attn` at the index 2T batch rows further. -/
theorem block_value (X : S64x512x384.Idx → EReal) (wq wk wv : S384x64.Idx → EReal)
    (x0 : Vec Ideal S2x512x384 .f32) (w : Vec Ideal S384x192 .f32) (T : Nat)
    (hx : ∀ (y : S2x512x384.Idx) (i : S64x512x384.Idx), (i 0).val = T * 2 + (y 0).val → (i 1).val = (y 1).val →
      (i 2).val = (y 2).val → x0 y = X i)
    (hw : ∀ y : S384x192.Idx, w y = fuse wq wk wv y)
    (j : S2x512x64.Idx) (i : S64x512x64.Idx) (h0 : (i 0).val = T * 2 + (j 0).val) (h1 : (i 1).val = (j 1).val)
    (h2 : (i 2).val = (j 2).val) :
    k0_pay1 (F := Ideal) x0 w j = Cert.Attn.attn X wq wk wv i := by
  obtain ⟨b, q, h, rfl⟩ : ∃ (b : Fin 2) (q : Fin 512) (h : Fin 64), j = ix3 b q h := ⟨j 0, j 1, j 2, eq_ix3 j⟩
  have hB : T * 2 + b.val < 64 := by
    have hi : (i 0).val < 64 := (i 0).isLt
    have e : (i 0).val = T * 2 + b.val := h0
    omega
  obtain rfl : i = ix3 ⟨T * 2 + b.val, hB⟩ q h := funext fun a => Fin.ext (by
    match a with
    | ⟨0, _⟩ => exact h0
    | ⟨1, _⟩ => exact h1
    | ⟨2, _⟩ => exact h2)
  rw [Pay.pay_apply]
  show _ = Cert.Attn.head (Cert.Attn.proj X wq ⟨T * 2 + b.val, hB⟩) (Cert.Attn.proj X wk ⟨T * 2 + b.val, hB⟩)
    (Cert.Attn.proj X wv ⟨T * 2 + b.val, hB⟩) q h
  have hQ : Pay.Qb x0 w b = Cert.Attn.proj X wq ⟨T * 2 + b.val, hB⟩ := funext fun t => funext fun h' => by
    unfold Pay.Qb Cert.Attn.proj
    refine Finset.sum_congr rfl fun cc _ => ?_
    rw [hx (ix3 b t cc) (ix3 ⟨T * 2 + b.val, hB⟩ t cc) rfl rfl rfl, hw, fuse_q]
  have hK : Pay.Kb x0 w b = Cert.Attn.proj X wk ⟨T * 2 + b.val, hB⟩ := funext fun t => funext fun h' => by
    unfold Pay.Kb Cert.Attn.proj
    refine Finset.sum_congr rfl fun cc _ => ?_
    rw [hx (ix3 b t cc) (ix3 ⟨T * 2 + b.val, hB⟩ t cc) rfl rfl rfl, hw, fuse_k]
  have hV : Pay.Vb x0 w b = Cert.Attn.proj X wv ⟨T * 2 + b.val, hB⟩ := funext fun t => funext fun h' => by
    unfold Pay.Vb Cert.Attn.proj
    refine Finset.sum_congr rfl fun cc _ => ?_
    rw [hx (ix3 b t cc) (ix3 ⟨T * 2 + b.val, hB⟩ t cc) rfl rfl rfl, hw, fuse_v]
  rw [hQ, hK, hV]

variable (m : (ℓ : Loc nD τ sig) → Buf (Elt Ideal) ℓ) (ρ : Dev nD → PrngReg)

/-- The fused weights as the region finds them: the three weight arguments side by side. -/
theorem V_w (c : Dev nD) : (V m c main_v0 : S384x192.Idx → EReal)
    = fuse (m ((c : Thread nD τ).loc main_arg1)) (m ((c : Thread nD τ).loc main_arg2)) (m ((c : Thread nD τ).loc main_arg3)) := by
  dsimp only [V, hostOps0]; after_results; rfl

/-! ## Blockwise: what each point writes back, and the run with the result array named -/

/-- What point `t` writes back: the body's value of the two input blocks at `t`. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- After the run the result array is what the library computes from the per-point contents. -/
theorem post2 (r : PUnit × MemSt nD τ sig (Elt Ideal)) (h : Pipeline.FramePost cfgs (dats m) 0 (V m) r) (c : Dev nD) :
    r.2.mem ((c : Thread nD τ).loc main_v1) = (dats m 0 c).arrAt 2 cfg0.N :=
  (h c).1 2

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the result array ends holding. -/
abbrev G (c : Dev nD) : S64x512x64.Idx → EReal :=
  Cert.Attn.attn (m ((c : Thread nD τ).loc main_arg0)) (m ((c : Thread nD τ).loc main_arg1)) (m ((c : Thread nD τ).loc main_arg2)) (m ((c : Thread nD τ).loc main_arg3))

/-- The index maps over the grid: the x and result windows move one block along the batch axis per point, the weights
    window stays. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Every pair of batch rows is some point's block. -/
theorem idx_onto2 : ∀ q0 : Fin 32, ∃ t : Fin cfg0.N, win0_2.index t = ![q0.val, 0, 0] :=
  (by decide +kernel : ∀ q0 : Fin 32, ∃ t : Fin grid0.N, win0_2.index t = ![q0.val, 0, 0])

/-- Point `t` writes back block `t` of `G`. -/
theorem flushed2_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz3]
  simp only [View.ld_unit_zero (S := S2x512x384) hz3, View.ld_unit_zero (S := S384x192) hz2]
  obtain ⟨e0, e1, e2, e3, e4, e5, e6, e7⟩ := idx_facts t
  funext j
  show k0_pay1 (F := Ideal) (iblk m c 0 t) (iblk m c 1 t) j = G m c (((cfg0.win 2).blk t).view.emb j)
  refine block_value (m ((c : Thread nD τ).loc main_arg0)) (m ((c : Thread nD τ).loc main_arg1)) (m ((c : Thread nD τ).loc main_arg2)) (m ((c : Thread nD τ).loc main_arg3))
    (iblk m c 0 t) (iblk m c 1 t) t.val ?_ ?_ j _ ?_ ?_ ?_
  · intro y i h0 h1 h2
    show V m c main_arg0 (((cfg0.win 0).blk t).view.emb y) = m ((c : Thread nD τ).loc main_arg0) i
    rw [V_main_arg0]
    refine congrArg _ (funext fun a => Fin.ext ?_)
    match a with
    | ⟨0, _⟩ => show win0_0.index t (0 : Fin 3) * 2 + 1 * (y 0).val = (i 0).val; omega
    | ⟨1, _⟩ => show win0_0.index t (1 : Fin 3) * 512 + 1 * (y 1).val = (i 1).val; omega
    | ⟨2, _⟩ => show win0_0.index t (2 : Fin 3) * 384 + 1 * (y 2).val = (i 2).val; omega
  · intro y
    show V m c main_v0 (((cfg0.win 1).blk t).view.emb y) = _
    rw [← V_w m c]
    refine congrArg _ (funext fun a => Fin.ext ?_)
    match a with
    | ⟨0, _⟩ => show win0_1.index t (0 : Fin 2) * 384 + 1 * (y 0).val = (y 0).val; omega
    | ⟨1, _⟩ => show win0_1.index t (1 : Fin 2) * 192 + 1 * (y 1).val = (y 1).val; omega
  · show win0_2.index t (0 : Fin 3) * 2 + 1 * (j 0).val = t.val * 2 + (j 0).val; omega
  · show win0_2.index t (1 : Fin 3) * 512 + 1 * (j 1).val = (j 1).val; omega
  · show win0_2.index t (2 : Fin 3) * 64 + 1 * (j 2).val = (j 2).val; omega

/-- An index is in point `t`'s block iff each coordinate is in the block's range on its axis. -/
theorem mem_blk2 (t : Fin cfg0.N) (i : S64x512x64.Idx) :
    i ∈ ((cfg0.win 2).blk t).view.set ↔ ∀ a : Fin 3, win0_2.index t a * S2x512x64.size a ≤ (i a).val ∧ (i a).val < win0_2.index t a * S2x512x64.size a + S2x512x64.size a := by
  show i ∈ ((View.whole main_v1).slice (win0_2.rect t)).set ↔ _
  rw [View.set_slice_whole, Rect.mem_set_unit]
  exact Iff.rfl

/-- Batch row r lies in the block of point r / 2: the blocks cover the result. -/
theorem cover2 (i : S64x512x64.Idx) : ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 64 := (i 2).isLt
  obtain ⟨t, ht⟩ := idx_onto2 ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The result array after the run. -/
theorem final2 (c : Dev nD) : (dats m 0 c).arrAt 2 cfg0.N = G m c :=
  (dats m 0 c).arrAt_eq_of_cover 2 (G m c) (fun t _ => flushed2_eq m c t) cover2

/-! ## The run, read -/

/-- Every weakly fair execution of the idealized kernel ends with the result array at `Attn.attn` of the arguments and
    the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post2 m r h c).trans (final2 m c),
      kept_main_arg0 m r h c, kept_main_arg1 m r h c, kept_main_arg2 m r h c, kept_main_arg3 m r h c⟩)
    (run_main m ρ)

end Cert.KernelIdeal.Val

end
-- ==== Proof.Consts.lean ====
/-
  The three float constants the two programs spell differently, as the extended reals they denote.

  The kernel multiplies the scores by the word of 0.125; the reference divides 1.0 by the square root of 64.0. The square
  root of 64 is 8 exactly and 1 / 8 = 0.125, a dyadic the 32-bit format holds exactly, so the two scales are one number.
  The reference fills the masked scores with the word of -∞, which denotes ⊥.
-/
import Idealize.ShloMosaic.PureOps.Ideal

noncomputable section

namespace Cert.Attn.Consts

open Idealize.ShloMosaic

/-- The word of -∞ denotes ⊥. -/
theorem ofBits_neg_inf : Ideal.ofBits .f32 0xFF800000#32 = ⊥ := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 64.0 denotes 64. -/
theorem ofBits_64 : Ideal.ofBits .f32 0x42800000#32 = ((64 : ℝ) : EReal) := by
  simp [Ideal.ofBits, Ideal.ieee, -EReal.coe_mul]; norm_num

/-- The word of 0.125 denotes 1 / 8. -/
theorem ofBits_eighth : Ideal.ofBits .f32 0x3E000000#32 = (((1 / 8 : ℝ)) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- 1.0 / √64.0, computed on the extended reals, is the number the word of 0.125 denotes. -/
theorem one_div_sqrt_64 :
    Ideal.div (Ideal.ofBits .f32 0x3F800000#32) (Ideal.sqrt (Ideal.ofBits .f32 0x42800000#32)) = Ideal.ofBits .f32 0x3E000000#32 := by
  rw [ofBits_one, ofBits_64, ofBits_eighth]
  have h : Ideal.sqrt ((64 : ℝ) : EReal) = ((8 : ℝ) : EReal) := by
    show (if (64 : ℝ) < 0 then (⊥ : EReal) else ((Real.sqrt 64 : ℝ) : EReal)) = _
    rw [if_neg (by norm_num), sqrt_64]
  rw [h, Ideal.div_coe (by norm_num : (8 : ℝ) ≠ 0), ← EReal.coe_mul, one_mul]

end Cert.Attn.Consts

end
-- ==== Proof.RefSpec.lean ====
/-
  What the reference computes, read entry by entry at the ideal values.

  The reference projects x by Wq, Wk and Wv separately — entry (b, t, h) is ∑_c x[b, t, c] · W[c, h] —, forms the scores
  ∑_h Q[b, q, h] · K[b, k, h] and multiplies them by 1.0 / √64.0, which is the number the word of 0.125 denotes. Its causal
  mask is a 512 × 512 table, row counter ≥ column counter (the row counter plus a zero offset), laid over every batch
  row; where the mask is off the score is replaced by the word of -∞, that is ⊥. Its softmax takes the row's maximum as
  a fold from -∞ and then once more the maximum with -∞, which changes nothing; it exponentiates the differences, sums
  them from zero, and divides. The result is the weights times V. So entry (b, q, h) is `Attn.head` of batch row b's three
  projections: the reference is `Attn.attn`.
-/
import proofs.«173067_j893353198161_2_alg».proof.Proof.Gen.ReferenceIdeal.Read
import Idealize.ShloMosaic.Lib.ValueIdx
import Idealize.ShloMosaic.PureOps.Ideal.Laws
import proofs.«173067_j893353198161_2_alg».proof.Proof.LibSoftmaxRows
import proofs.«173067_j893353198161_2_alg».proof.Proof.LibCausalMask
import proofs.«173067_j893353198161_2_alg».proof.Proof.Spec
import proofs.«173067_j893353198161_2_alg».proof.Proof.Consts

set_option maxRecDepth 16384

noncomputable section

open scoped BigOperators

namespace Cert.ReferenceIdeal.RefSpec

open Cert.ReferenceIdeal Cert.ReferenceIdeal.Gen Cert.ReferenceIdeal.Read Idealize.ShloMosaic Idealize.ShloMosaic.ValueIdx
open Cert.Attn

variable (x : FVec Ideal S64x512x384 .f32) (wq wk wv : FVec Ideal S384x64 .f32)

/-! ## The projections -/

theorem q_apply (B : Fin 64) (t : Fin 512) (h : Fin 64) : val_main_v0 (F := Ideal) x wq (ix3 B t h) = proj x wq B t h := by
  rw [val_main_v0_apply]
  unfold Cert.Attn.proj
  refine Finset.sum_congr rfl fun c _ => ?_
  exact congrArg₂ (· * ·)
    (congrArg x (funext fun a => by match a with | ⟨0, _⟩ => rfl | ⟨1, _⟩ => rfl | ⟨2, _⟩ => rfl))
    (congrArg wq (funext fun a => by match a with | ⟨0, _⟩ => rfl | ⟨1, _⟩ => rfl))

theorem k_apply (B : Fin 64) (t : Fin 512) (h : Fin 64) : val_main_v1 (F := Ideal) x wk (ix3 B t h) = proj x wk B t h := by
  rw [val_main_v1_apply]
  unfold Cert.Attn.proj
  refine Finset.sum_congr rfl fun c _ => ?_
  exact congrArg₂ (· * ·)
    (congrArg x (funext fun a => by match a with | ⟨0, _⟩ => rfl | ⟨1, _⟩ => rfl | ⟨2, _⟩ => rfl))
    (congrArg wk (funext fun a => by match a with | ⟨0, _⟩ => rfl | ⟨1, _⟩ => rfl))

theorem v_apply (B : Fin 64) (t : Fin 512) (h : Fin 64) : val_main_v2 (F := Ideal) x wv (ix3 B t h) = proj x wv B t h := by
  rw [val_main_v2_apply]
  unfold Cert.Attn.proj
  refine Finset.sum_congr rfl fun c _ => ?_
  exact congrArg₂ (· * ·)
    (congrArg x (funext fun a => by match a with | ⟨0, _⟩ => rfl | ⟨1, _⟩ => rfl | ⟨2, _⟩ => rfl))
    (congrArg wv (funext fun a => by match a with | ⟨0, _⟩ => rfl | ⟨1, _⟩ => rfl))

/-! ## The scaled scores and the mask -/

/-- The scaled score at (b, q, k). -/
theorem scaled_apply (B : Fin 64) (q k : Fin 512) :
    val_main_v7 (F := Ideal) x wq wk (ix3 B q k)
      = (∑ h : Fin 64, proj x wq B q h * proj x wk B k h) * Ideal.ofBits .f32 0x3E000000#32 := by
  have e5 : val_main_v5 (F := Ideal) x wq wk (ix3 B q k) = ∑ h : Fin 64, proj x wq B q h * proj x wk B k h := by
    rw [val_main_v5_apply]
    refine Finset.sum_congr rfl fun h _ => ?_
    have el : lidx_main_v5 (ix3 B q k) h = ix3 B q h := funext fun a => by
      match a with | ⟨0, _⟩ => rfl | ⟨1, _⟩ => rfl | ⟨2, _⟩ => rfl
    have er : ridx_main_v5 (ix3 B q k) h = ix3 B k h := funext fun a => by
      match a with | ⟨0, _⟩ => rfl | ⟨1, _⟩ => rfl | ⟨2, _⟩ => rfl
    rw [el, er, q_apply, k_apply]
  have e6 : val_main_v6 (F := Ideal) (ix3 B q k) = Ideal.ofBits .f32 0x3E000000#32 := by
    rw [val_main_v6_apply, val_main_v4_apply, val_main_cst_0_apply, val_main_v3_apply, val_main_cst_apply]
    exact Cert.Attn.Consts.one_div_sqrt_64
  rw [val_main_v7_apply, e5, e6]
  rfl

/-- The masked score at (b, q, k) is the spec's logit. -/
theorem masked_apply (B : Fin 64) (q k : Fin 512) :
    val_main_v10 (F := Ideal) x wq wk (ix3 B q k) = logit (proj x wq B) (proj x wk B) q k := by
  rw [val_main_v10_apply, val_main_call1_v1_apply, val_main_v9_apply, val_main_call0_v4_apply, val_main_call0_v2_apply,
    val_main_call0_v0_apply, val_main_call0_v1_apply, val_main_call0_c_apply, val_main_call0_v3_apply, val_main_v8_apply,
    val_main_c_apply, val_main_call0_v5_apply, val_main_call0_c_0_apply, val_main_call1_v2_apply, val_main_call1_v0_apply,
    val_main_cst_1_apply, scaled_apply]
  show Scalar.select (Scalar.select (IntOp.cmpi .sge (IntOp.addi (BitVec.ofNat 32 q.val) 0#32) (BitVec.ofNat 32 k.val)) 1#1 0#1)
      ((∑ h : Fin 64, proj x wq B q h * proj x wk B k h) * Ideal.ofBits .f32 0x3E000000#32) (Ideal.ofBits .f32 0xFF800000#32) = _
  rw [CausalMask.addi_zero32, CausalMask.select_sge_ofNat q.val k.val (by have := q.isLt; omega) (by have := k.isLt; omega),
    Cert.Attn.Consts.ofBits_neg_inf]
  unfold Cert.Attn.logit
  by_cases h : k.val ≤ q.val
  · rw [if_pos h, if_pos h]; exact select_one _ _
  · rw [if_neg h, if_neg h]; exact select_zero _ _

/-! ## The softmax -/

/-- The row maximum at (b, q): the fold of max from -∞ over the masked scores. -/
theorem rowmax_apply (B : Fin 64) (q : Fin 512) :
    val_main_v13 (F := Ideal) x wq wk (ix2 B q)
      = (Finset.univ : Finset (Fin 512)).fold max (Ideal.ofBits .f32 0xFF800000#32) (logit (proj x wq B) (proj x wk B) q) := by
  rw [val_main_v13_apply, val_main_v12_apply, val_main_cst_3_apply]
  have e11 : val_main_v11 (F := Ideal) x wq wk (ix2 B q)
      = (Finset.univ : Finset (Fin 512)).fold max (Ideal.ofBits .f32 0xFF800000#32) (logit (proj x wq B) (proj x wk B) q) := by
    unfold val_main_v11
    rw [SoftmaxRows.hostLaneMax3_apply (val_main_v10 (F := Ideal) x wq wk) (val_main_cst_2 (F := Ideal)) reducesTo_S64x512x512_S64x512_d2
      (by decide) h_S_ B q]
    exact Finset.fold_congr fun c _ => masked_apply x wq wk B q c
  rw [e11]
  exact SoftmaxRows.max_fold_max_self _ _ _

/-- The normalized weight at (b, q, k): the softmax of the row of logits. -/
theorem weight_apply (B : Fin 64) (q k : Fin 512) :
    val_main_v21 (F := Ideal) x wq wk (ix3 B q k)
      = SoftmaxRows.softmaxAt (logit (proj x wq B) (proj x wk B) q) (Ideal.ofBits .f32 0xFF800000#32) k := by
  have hexp : ∀ c : Fin 512, val_main_v17 (F := Ideal) x wq wk (ix3 B q c)
      = Ideal.exp (logit (proj x wq B) (proj x wk B) q c
          - (Finset.univ : Finset (Fin 512)).fold max (Ideal.ofBits .f32 0xFF800000#32) (logit (proj x wq B) (proj x wk B) q)) := fun c => by
    rw [val_main_v17_apply, val_main_v16_apply, val_main_v15_apply, val_main_v14_apply, masked_apply]
    have e : idx_main_v14 (idx_main_v15 (ix3 B q c)) = ix2 B q := funext fun a => by
      match a with | ⟨0, _⟩ => rfl | ⟨1, _⟩ => rfl
    rw [e, rowmax_apply]
    rfl
  have hsum : val_main_v20 (F := Ideal) x wq wk (ix3 B q k)
      = ∑ c : Fin 512, Ideal.exp (logit (proj x wq B) (proj x wk B) q c
          - (Finset.univ : Finset (Fin 512)).fold max (Ideal.ofBits .f32 0xFF800000#32) (logit (proj x wq B) (proj x wk B) q)) := by
    rw [val_main_v20_apply, val_main_v19_apply]
    have e : idx_main_v19 (idx_main_v20 (ix3 B q k)) = ix2 B q := funext fun a => by
      match a with | ⟨0, _⟩ => rfl | ⟨1, _⟩ => rfl
    rw [e, val_main_v18_apply, val_main_cst_4_apply]
    show Ideal.ofBits .f32 0x00000000#32 + _ = _
    rw [Ideal.ofBits_zero_f32, zero_add]
    refine Finset.sum_congr rfl fun c _ => ?_
    have e' : idx_main_v18 (ix2 B q) c = ix3 B q c := funext fun a => by
      match a with | ⟨0, _⟩ => rfl | ⟨1, _⟩ => rfl | ⟨2, _⟩ => rfl
    rw [e', hexp c]
  rw [val_main_v21_apply, hexp k, hsum]
  rfl

/-! ## The result -/

/-- The reference's result is the spec, entry by entry. -/
theorem result_eq : val_main_v22 (F := Ideal) x wq wk wv = attn x wq wk wv := by
  funext i
  obtain ⟨B, q, h, rfl⟩ : ∃ (B : Fin 64) (q : Fin 512) (h : Fin 64), i = ix3 B q h := ⟨i 0, i 1, i 2, eq_ix3 i⟩
  rw [val_main_v22_apply]
  show _ = head (proj x wq B) (proj x wk B) (proj x wv B) q h
  unfold Cert.Attn.head
  refine Finset.sum_congr rfl fun k _ => ?_
  have el : lidx_main_v22 (ix3 B q h) k = ix3 B q k := funext fun a => by
    match a with | ⟨0, _⟩ => rfl | ⟨1, _⟩ => rfl | ⟨2, _⟩ => rfl
  have er : ridx_main_v22 (ix3 B q h) k = ix3 B k h := funext fun a => by
    match a with | ⟨0, _⟩ => rfl | ⟨1, _⟩ => rfl | ⟨2, _⟩ => rfl
  rw [el, er, weight_apply, v_apply]

end Cert.ReferenceIdeal.RefSpec

end
-- ==== Proof.lean ====
/-
  One causal attention head: a fused kernel against its jnp reference, equal on the extended reals.

  Inputs x (64 × 512 × 384) and three 384 × 64 weight matrices. Both programs compute, for batch row b, query position
  q and feature h,

      out[b, q, h] = ∑_k softmax_k( mask(q, k, (Q_b[q] · K_b[k]) · 0.125) ) · V_b[k, h],

  with Q_b, K_b, V_b the three projections of row b, the mask keeping k ≤ q and putting -∞ elsewhere, and the softmax
  spelt with the row maximum subtracted. The kernel projects by the three matrices set side by side in one product and
  cuts the columns apart, walks the batch two rows at a time, scales by the literal 0.125 and fills the masked scores
  with a large finite negative number that its idealization names -∞; the reference scales by 1.0 / √64.0 — the same
  number, since √64 = 8 and 1 / 8 is exactly representable — and fills with -∞ itself. Entry by entry the two are one
  function of the arguments (`Attn.attn`), with nothing rearranged, so the equality needs no finiteness of the inputs.

  The five claims: the two kernel programs run to the end leaving their arguments unchanged (their bodies read two
  input blocks and overwrite one output block per grid point); the reference runs likewise; the one rewrite of the
  idealization is the naming of the fill constant; and the two idealized programs end with equal results.
-/
import proofs.«173067_j893353198161_2_alg».proof.Defs
import proofs.«173067_j893353198161_2_alg».proof.Proof.Gen.Kernel
import proofs.«173067_j893353198161_2_alg».proof.Proof.Gen.Kernel.Skeleton
import proofs.«173067_j893353198161_2_alg».proof.Proof.Gen.Kernel.Launch
import proofs.«173067_j893353198161_2_alg».proof.Proof.Gen.Kernel.Points
import proofs.«173067_j893353198161_2_alg».proof.Proof.Gen.KernelIdeal
import proofs.«173067_j893353198161_2_alg».proof.Proof.Gen.KernelIdeal.Skeleton
import proofs.«173067_j893353198161_2_alg».proof.Proof.Gen.KernelIdeal.Launch
import proofs.«173067_j893353198161_2_alg».proof.Proof.Gen.KernelIdeal.Points
import proofs.«173067_j893353198161_2_alg».proof.Proof.Gen.ReferenceIdeal
import proofs.«173067_j893353198161_2_alg».proof.Proof.Gen.ReferenceIdeal.Run
import proofs.«173067_j893353198161_2_alg».proof.Proof.Gen.ReferenceIdeal.Read
import proofs.«173067_j893353198161_2_alg».proof.Proof.Gen.Pre_finite_inputs
import proofs.«173067_j893353198161_2_alg».proof.Proof.FrameKernel
import proofs.«173067_j893353198161_2_alg».proof.Proof.FrameKernelIdeal
import proofs.«173067_j893353198161_2_alg».proof.Proof.KernelValue
import proofs.«173067_j893353198161_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_p : Cert.frame_Kernel := fun m ρ _ => Cert.Kernel.Frm.frame m ρ

/-- So does its idealization. -/
theorem frame_pi : Cert.frame_KernelIdeal := fun m ρ _ => Cert.KernelIdeal.Frm.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the fill constant -0.7 · (largest finite number) is named, and the name denotes ⊥. -/
theorem preserves : Cert.preserves_Kernel_KernelIdeal :=
  IdealRules.named_const.statement Cert.KernelIdeal.κ "neg_big" .f32 0xFF333332#32 ⊥ rfl

/-- Both idealized programs end with the result array at `Attn.attn` of the arguments. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefSpec.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
